-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2048x256 : Shape := ⟨2, ![2048, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S65536x256 .f32) (main_arg1 : FVec F S2048x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S65536x256 : Shape := ⟨2, ![65536, 256]⟩
abbrev S2048x256 : Shape := ⟨2, ![2048, 256]⟩
abbrev S65536x2048 : Shape := ⟨2, ![65536, 2048]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S2048x256, .f32⟩
  | .hbm, ⟨2, _⟩ => ⟨S2048x256, .bf16⟩
  | .hbm, ⟨3, _⟩ => ⟨S65536x256, .f32⟩
  | .hbm, ⟨4, _⟩ => ⟨S65536x2048, .f32⟩
  | .local _ .vmem, ⟨0, _⟩ => ⟨S512x256, .f32⟩
  | .local _ .vmem, ⟨1, _⟩ => ⟨S512x256, .f32⟩
  | .local _ .vmem, ⟨2, _⟩ => ⟨S2048x256, .bf16⟩
  | .local _ .vmem, ⟨3, _⟩ => ⟨S512x256, .f32⟩
  | .local _ .vmem, ⟨4, _⟩ => ⟨S512x256, .f32⟩
  | .local _ .vmem, ⟨5, _⟩ => ⟨S512x2048, .f32⟩
  | .local _ .vmem, ⟨6, _⟩ => ⟨S512x2048, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S2048x256 : Shape := ⟨2, ![2048, 256]⟩
abbrev S65536x2048 : Shape := ⟨2, ![65536, 2048]⟩
abbrev S_ : Shape := ⟨0, ![]⟩
abbrev S65536 : Shape := ⟨1, ![65536]⟩
abbrev S65536x1 : Shape := ⟨2, ![65536, 1]⟩

abbrev nBuf : Space → Nat
  | .hbm => 18
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S2048x256, .f32⟩
  | .hbm, ⟨2, _⟩ => ⟨S65536x2048, .f32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S65536, .f32⟩
  | .hbm, ⟨7, _⟩ => ⟨S65536, .f32⟩
  | .hbm, ⟨8, _⟩ => ⟨S65536x1, .f32⟩
  | .hbm, ⟨9, _⟩ => ⟨S65536x2048, .f32⟩
  | .hbm, ⟨10, _⟩ => ⟨S65536x2048, .f32⟩
  | .hbm, ⟨11, _⟩ => ⟨S65536x2048, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S65536x2048, .f32⟩
  | .hbm, ⟨16, _⟩ => ⟨S65536x2048, .f32⟩
  | .hbm, ⟨17, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S65536x2048_S65536_d1 : S65536x2048.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x2048_0_1 : S65536x1.BroadcastsInDim S65536x2048 (![0, 1] : Fin 2 → Fin S65536x2048.rank)
  dot_S65536x256_S2048x256_S65536x2048_1_1_0_0_n_n_wf : DotDims.WF S65536x256 S2048x256 S65536x2048 [1] [1] [0] [0] [] []
  dot_S65536x2048_S2048x256_S65536x256_1_0_0_1_n_n_wf : DotDims.WF S65536x2048 S2048x256 S65536x256 [1] [0] [0] [1] [] []

variable [Facts₀]

def dot_S65536x256_S2048x256_S65536x2048_1_1_0_0_n_n : DotDims S65536x256 S2048x256 S65536x2048 where
  lhsContracting := [1]
  rhsContracting := [1]
  lhsNonContracting := [0]
  rhsNonContracting := [0]
  lhsBatch := []
  rhsBatch := []
  wf := dot_S65536x256_S2048x256_S65536x2048_1_1_0_0_n_n_wf
def dot_S65536x2048_S2048x256_S65536x256_1_0_0_1_n_n : DotDims S65536x2048 S2048x256 S65536x256 where
  lhsContracting := [1]
  rhsContracting := [0]
  lhsNonContracting := [0]
  rhsNonContracting := [1]
  lhsBatch := []
  rhsBatch := []
  wf := dot_S65536x2048_S2048x256_S65536x256_1_0_0_1_n_n_wf

class Facts : Prop extends Facts₀ where

variable [Facts]
-- ==== Proof.LibRealEntry.lean ====
/-
  Which extended reals pass the test "|x| < +∞": exactly the real numbers. At −∞ and at +∞ the absolute value
  max(x, −x) is +∞, which is not below +∞; at a real number it is a real number, which is.
-/
import Idealize.ShloMosaic.PureOps.Ideal.Laws

noncomputable section

namespace Cert.Lib.RealEntry

open Idealize.ShloMosaic

/-- An extended real whose absolute value compares below the single-precision +∞ pattern is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

end Cert.Lib.RealEntry

end
-- ==== Proof.Finite.lean ====
/-
  From the precondition to real entries. The precondition says that every entry of both arguments has absolute
  value below +∞ (an "all" over each array, the two joined by "and"). On the extended reals |x| < +∞ leaves out
  exactly the two infinities, so every entry is a real number.
-/
import proofs.«151388_j41901700939802_2_alg».proof.Pre_finite_inputs
import Idealize.ShloMosaic.Lib.ReduceAll
import Idealize.ShloMosaic.Lib.ValueIdx
import Idealize.ShloMosaic.PureOps.Ideal.Laws
import proofs.«151388_j41901700939802_2_alg».proof.Proof.LibRealEntry

noncomputable section

namespace Cert.MemAttn

open Idealize.ShloMosaic Cert.Pre_finite_inputs Cert.Lib.RealEntry

/-- The rank-0 shape has one index. -/
instance subsingleton_scalarIdx : Subsingleton S_.Idx := ⟨fun _ _ => funext fun d => d.elim0⟩

/-- Under the precondition every entry of both arguments is a real number. -/
theorem entries_real [Facts] (x : FVec Ideal S65536x256 .f32) (mem : FVec Ideal S2048x256 .f32)
    (h : fn (F := Ideal) x mem = fun _ => 1#1) :
    (∀ i, ∃ r : ℝ, x i = r) ∧ (∀ i, ∃ r : ℝ, mem i = r) := by
  have h0 := congrFun h ValueIdx.ix0
  dsimp only [fn] at h0
  obtain ⟨ha, hb⟩ := IntOp.andi_eq_one.1 h0
  refine ⟨fun i => ?_, fun i => ?_⟩
  · exact real_of_abs_lt_inf _ (Host.reduce_andi_all _ _ _ _ _ ha i)
  · exact real_of_abs_lt_inf _ (Host.reduce_andi_all _ _ _ _ _ hb i)

end Cert.MemAttn

end
-- ==== Proof.LibSoftmaxShift.lean ====
/-
  Exponentials of shifted real scores, normalised, on the extended reals.

  For finitely many real scores s_k (at least one) and a real shift M,
      exp(s_j − M) / (0 + Σ_k exp(s_k − M)) = exp(s_j) / Σ_k exp(s_k),
  since exp(s − M) = exp(s)/exp(M) and the common factor 1/exp(M) leaves the quotient: the weights computed after
  subtracting a row's maximum are the weights computed directly. Beside it: a finite sum of reals taken in the
  extended reals is the real sum, and the maximum of at least one real folded from −∞ (and compared with −∞ once
  more, as a guarded row maximum is) is a real number, so it can serve as the shift M.
-/
import Idealize.ShloMosaic.PureOps.Ideal.Laws

noncomputable section

open scoped BigOperators

namespace Cert.Lib.SoftmaxShift

open Idealize.ShloMosaic

/-- A finite sum of reals, taken in the extended reals, is the real sum. -/
theorem coe_sum {ι : Type*} (s : Finset ι) (f : ι → ℝ) : ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- The largest of finitely many reals, folded from −∞ and then compared with −∞ once more, is a real number
    (there is at least one of them). -/
theorem rowMax_real {K : ℕ} (hK : 0 < K) (s : Fin K → ℝ) :
    ∃ M : ℝ, max (⊥ : EReal) ((Finset.univ : Finset (Fin K)).fold max (⊥ : EReal) (fun k => (s k : EReal))) = (M : EReal) := by
  rw [max_eq_right bot_le]
  have htop : (Finset.univ : Finset (Fin K)).fold max (⊥ : EReal) (fun k => (s k : EReal)) ≠ ⊤ := by
    have h : (Finset.univ : Finset (Fin K)).fold max (⊥ : EReal) (fun k => (s k : EReal)) < ⊤ := by
      rw [Finset.fold_max_lt]
      exact ⟨bot_lt_top, fun k _ => EReal.coe_lt_top _⟩
    exact h.ne
  have hbot : (Finset.univ : Finset (Fin K)).fold max (⊥ : EReal) (fun k => (s k : EReal)) ≠ ⊥ := by
    have h : (⊥ : EReal) < (Finset.univ : Finset (Fin K)).fold max (⊥ : EReal) (fun k => (s k : EReal)) := by
      rw [Finset.lt_fold_max]
      exact Or.inr ⟨(⟨0, hK⟩ : Fin K), Finset.mem_univ _, EReal.bot_lt_coe _⟩
    exact h.ne'
  exact ⟨_, (EReal.coe_toReal htop hbot).symm⟩

/-- THE LAW. For real scores and a real shift `M`, exponentiating the shifted scores and normalising them (the
    normaliser summed from zero) gives the weights of the unshifted scores. -/
theorem softmax_shift {K : ℕ} (hK : 0 < K) (s : Fin K → ℝ) (M : ℝ) (j : Fin K) :
    Ideal.div (Ideal.exp ((s j : EReal) - (M : EReal))) ((0 : EReal) + ∑ k : Fin K, Ideal.exp ((s k : EReal) - (M : EReal)))
      = Ideal.div (Ideal.exp (s j : EReal)) (∑ k : Fin K, Ideal.exp (s k : EReal)) := by
  have hne : (Finset.univ : Finset (Fin K)).Nonempty := ⟨⟨0, hK⟩, Finset.mem_univ _⟩
  have hpos : 0 < ∑ k : Fin K, Real.exp (s k) := Finset.sum_pos (fun k _ => Real.exp_pos _) hne
  have hpos' : 0 < ∑ k : Fin K, Real.exp (s k - M) := Finset.sum_pos (fun k _ => Real.exp_pos _) hne
  have hM : Real.exp M ≠ 0 := (Real.exp_pos M).ne'
  simp only [← EReal.coe_sub, Ideal.exp_coe, zero_add, coe_sum]
  rw [Ideal.div_coe hpos.ne', Ideal.div_coe hpos'.ne', ← EReal.coe_mul, ← EReal.coe_mul]
  refine congrArg _ ?_
  have hs : ∑ k : Fin K, Real.exp (s k - M) = (∑ k : Fin K, Real.exp (s k)) / Real.exp M := by
    rw [Finset.sum_div]; exact Finset.sum_congr rfl fun k _ => Real.exp_sub _ _
  rw [hs, Real.exp_sub]
  have hS : (∑ k : Fin K, Real.exp (s k)) ≠ 0 := hpos.ne'
  field_simp

end Cert.Lib.SoftmaxShift

end
-- ==== Proof.Softmax.lean ====
/-
  Attention of the rows of an array over the slots of a memory table, on the extended reals.

  For an N-by-256 array x and a 2048-by-256 table mem, the score of row n against slot j is the inner product
  Σ_d x(n,d)·mem(j,d); the weight of slot j for row n is exp(score(n,j)) / Σ_j' exp(score(n,j')); and the
  read-out of row n is the weighted sum of the table's rows, Σ_j weight(n,j)·mem(j,d).

  The other way to write the weights first subtracts from every score of a row a number M (the row's largest
  score) and then exponentiates and normalises. For real scores and a real M the two agree, since
  exp(s − M) = exp(s)/exp(M) and the common factor 1/exp(M) leaves the quotient; at an infinite score or an
  infinite M they would not, so the law is stated for real entries only.
-/
import Idealize.ShloMosaic.PureOps.Ideal.Laws
import Idealize.ShloMosaic.Lib.ValueIdx
import proofs.«151388_j41901700939802_2_alg».proof.Proof.LibSoftmaxShift

noncomputable section

open scoped BigOperators

namespace Cert.MemAttn

open Idealize.ShloMosaic Idealize.ShloMosaic.ValueIdx Cert.Lib.SoftmaxShift

/-! ## The three quantities -/

/-- The score of row `n` of `x` against slot `j` of the table: their inner product over the 256 columns. -/
def score {N : ℕ} (x : (⟨2, ![N, 256]⟩ : Shape).Idx → EReal) (mem : (⟨2, ![2048, 256]⟩ : Shape).Idx → EReal)
    (n : Fin N) (j : Fin 2048) : EReal :=
  ∑ d : Fin 256, x (ix2 n d) * mem (ix2 j d)

/-- The weight of slot `j` for row `n`: the exponential of its score over the sum of the row's exponentials. -/
def weight {N : ℕ} (x : (⟨2, ![N, 256]⟩ : Shape).Idx → EReal) (mem : (⟨2, ![2048, 256]⟩ : Shape).Idx → EReal)
    (n : Fin N) (j : Fin 2048) : EReal :=
  Ideal.div (Ideal.exp (score x mem n j)) (∑ j' : Fin 2048, Ideal.exp (score x mem n j'))

/-- The read-out of row `n` at column `d`: the table's column `d` averaged with the row's weights. -/
def readout {N : ℕ} (x : (⟨2, ![N, 256]⟩ : Shape).Idx → EReal) (mem : (⟨2, ![2048, 256]⟩ : Shape).Idx → EReal)
    (n : Fin N) (d : Fin 256) : EReal :=
  ∑ j : Fin 2048, weight x mem n j * mem (ix2 j d)

/-- The array of all weights, N-by-2048. -/
def weights {N : ℕ} (x : (⟨2, ![N, 256]⟩ : Shape).Idx → EReal) (mem : (⟨2, ![2048, 256]⟩ : Shape).Idx → EReal) :
    (⟨2, ![N, 2048]⟩ : Shape).Idx → EReal :=
  fun i => weight x mem ⟨(i 0).val, (i 0).isLt⟩ ⟨(i 1).val, (i 1).isLt⟩

/-- The array of all read-outs, N-by-256. -/
def readouts {N : ℕ} (x : (⟨2, ![N, 256]⟩ : Shape).Idx → EReal) (mem : (⟨2, ![2048, 256]⟩ : Shape).Idx → EReal) :
    (⟨2, ![N, 256]⟩ : Shape).Idx → EReal :=
  fun i => readout x mem ⟨(i 0).val, (i 0).isLt⟩ ⟨(i 1).val, (i 1).isLt⟩

theorem weights_ix2 {N : ℕ} (x : (⟨2, ![N, 256]⟩ : Shape).Idx → EReal) (mem : (⟨2, ![2048, 256]⟩ : Shape).Idx → EReal)
    (n : Fin N) (j : Fin 2048) : weights x mem (ix2 n j) = weight x mem n j := rfl

theorem readouts_ix2 {N : ℕ} (x : (⟨2, ![N, 256]⟩ : Shape).Idx → EReal) (mem : (⟨2, ![2048, 256]⟩ : Shape).Idx → EReal)
    (n : Fin N) (d : Fin 256) : readouts x mem (ix2 n d) = readout x mem n d := rfl

/-! ## A row's quantities depend on that row only -/

/-- Two arrays that agree on a row, against tables that agree everywhere, have the same scores on it. -/
theorem score_congr {N N' : ℕ} (x : (⟨2, ![N, 256]⟩ : Shape).Idx → EReal) (x' : (⟨2, ![N', 256]⟩ : Shape).Idx → EReal)
    (mem mem' : (⟨2, ![2048, 256]⟩ : Shape).Idx → EReal) (n : Fin N) (n' : Fin N')
    (h : ∀ d : Fin 256, x (ix2 n d) = x' (ix2 n' d)) (hm : ∀ (j : Fin 2048) (d : Fin 256), mem (ix2 j d) = mem' (ix2 j d))
    (j : Fin 2048) : score x mem n j = score x' mem' n' j := by
  unfold score
  exact Finset.sum_congr rfl fun d _ => by rw [h d, hm j d]

/-- … the same weights … -/
theorem weight_congr {N N' : ℕ} (x : (⟨2, ![N, 256]⟩ : Shape).Idx → EReal) (x' : (⟨2, ![N', 256]⟩ : Shape).Idx → EReal)
    (mem mem' : (⟨2, ![2048, 256]⟩ : Shape).Idx → EReal) (n : Fin N) (n' : Fin N')
    (h : ∀ d : Fin 256, x (ix2 n d) = x' (ix2 n' d)) (hm : ∀ (j : Fin 2048) (d : Fin 256), mem (ix2 j d) = mem' (ix2 j d))
    (j : Fin 2048) : weight x mem n j = weight x' mem' n' j := by
  unfold weight
  rw [score_congr x x' mem mem' n n' h hm j]
  exact congrArg _ (Finset.sum_congr rfl fun k _ => by rw [score_congr x x' mem mem' n n' h hm k])

/-- … and the same read-out. -/
theorem readout_congr {N N' : ℕ} (x : (⟨2, ![N, 256]⟩ : Shape).Idx → EReal) (x' : (⟨2, ![N', 256]⟩ : Shape).Idx → EReal)
    (mem mem' : (⟨2, ![2048, 256]⟩ : Shape).Idx → EReal) (n : Fin N) (n' : Fin N')
    (h : ∀ d : Fin 256, x (ix2 n d) = x' (ix2 n' d)) (hm : ∀ (j : Fin 2048) (d : Fin 256), mem (ix2 j d) = mem' (ix2 j d))
    (d : Fin 256) : readout x mem n d = readout x' mem' n' d := by
  unfold readout
  exact Finset.sum_congr rfl fun j _ => by rw [weight_congr x x' mem mem' n n' h hm j, hm j d]

/-! ## Real entries -/

/-- With real entries every score is a real number. -/
theorem score_real {N : ℕ} (x : (⟨2, ![N, 256]⟩ : Shape).Idx → EReal) (mem : (⟨2, ![2048, 256]⟩ : Shape).Idx → EReal)
    (hx : ∀ i, ∃ r : ℝ, x i = r) (hm : ∀ i, ∃ r : ℝ, mem i = r) (n : Fin N) (j : Fin 2048) :
    ∃ r : ℝ, score x mem n j = r := by
  choose xr hxr using hx
  choose mr hmr using hm
  refine ⟨∑ d : Fin 256, xr (ix2 n d) * mr (ix2 j d), ?_⟩
  unfold score
  rw [← coe_sum]
  exact Finset.sum_congr rfl fun d _ => by rw [hxr, hmr, EReal.coe_mul]

/-- So, with real entries, the weights computed from scores shifted by the row's largest score (that maximum
    folded from −∞) are the weights. -/
theorem shifted_weight {N : ℕ} (x : (⟨2, ![N, 256]⟩ : Shape).Idx → EReal) (mem : (⟨2, ![2048, 256]⟩ : Shape).Idx → EReal)
    (hx : ∀ i, ∃ r : ℝ, x i = r) (hm : ∀ i, ∃ r : ℝ, mem i = r) (n : Fin N) (j : Fin 2048) :
    Ideal.div (Ideal.exp (score x mem n j
          - max (⊥ : EReal) ((Finset.univ : Finset (Fin 2048)).fold max (⊥ : EReal) (fun k => score x mem n k))))
        ((0 : EReal) + ∑ k : Fin 2048, Ideal.exp (score x mem n k
          - max (⊥ : EReal) ((Finset.univ : Finset (Fin 2048)).fold max (⊥ : EReal) (fun k => score x mem n k))))
      = weight x mem n j := by
  choose sr hsr using score_real x mem hx hm n
  have hf : (fun k => score x mem n k) = fun k => (sr k : EReal) := funext hsr
  obtain ⟨M, hMx⟩ := rowMax_real (by decide : 0 < 2048) sr
  unfold weight
  rw [hf, hMx]
  simp only [hsr]
  exact softmax_shift (by decide) sr M j

end Cert.MemAttn

end
-- ==== Proof.RefSide.lean ====
/-
  The reference, read at an index, is attention over the memory table.

  Its program computes the scores x·memᵀ, each row's largest score (a fold of max from −∞, then max with −∞ again),
  the exponentials of the scores shifted by that maximum, their row sums from zero, the quotient, and the product of
  the quotient array with the table. Each stage is read at a pair of coordinates; with real entries the shifted
  quotient is the weight (the law of shifted exponentials), and the last product is the read-out.
-/
import proofs.«151388_j41901700939802_2_alg».proof.Proof.Gen.ReferenceIdeal.Read
import proofs.«151388_j41901700939802_2_alg».proof.Proof.Softmax

noncomputable section

open scoped BigOperators

namespace Cert.MemAttn.Ref

open Cert.ReferenceIdeal Cert.ReferenceIdeal.Gen Cert.ReferenceIdeal.Read
open Idealize.ShloMosaic Idealize.ShloMosaic.ValueIdx Cert.MemAttn

variable (x0 : (⟨S65536x256, .f32⟩ : BufTy).Contents (Elt Ideal)) (x1 : (⟨S2048x256, .f32⟩ : BufTy).Contents (Elt Ideal))

/-- The first product at (p, q) is the score of row p against slot q. -/
theorem scores_ix2 (p : Fin 65536) (q : Fin 2048) :
    val_main_v0 (F := Ideal) x0 x1 (ix2 p q) = score x0 x1 p q := by
  rw [val_main_v0_apply]
  unfold score
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 q k :=
    funext fun a => Fin.ext (by match a with | ⟨0, _⟩ => rfl | ⟨1, _⟩ => rfl)
  rw [el, er]

/-- The row maximum at p: the fold of max from −∞ over the row's 2048 scores, compared with −∞ once more. -/
theorem rowMax_ix1 (p : Fin 65536) :
    val_main_v3 (F := Ideal) x0 x1 (ix1 p)
      = max (⊥ : EReal) ((Finset.univ : Finset (Fin 2048)).fold max (⊥ : EReal) (fun k => score x0 x1 p k)) := by
  have hbot : Ideal.ofBits .f32 0xFF800000#32 = ⊥ := by simp [Ideal.ofBits, Ideal.ieee]
  have hred : S65536x2048.Reduces [1] S65536 := by decide
  have hf : (val_main_v0 (F := Ideal) x0 x1 ∘ hred.lift (ix1 p)) = fun k : Fin 2048 => score x0 x1 p k := by
    funext k
    have hl : hred.lift (ix1 p) k = ix2 p (⟨k.val, k.isLt⟩ : Fin 2048) := by
      funext c; apply Fin.ext; fin_cases c <;> rfl
    show val_main_v0 (F := Ideal) x0 x1 (hred.lift (ix1 p) k) = _
    rw [hl]
    exact scores_ix2 x0 x1 p _
  rw [val_main_v3_apply, val_main_v2_apply, val_main_cst_0_apply]
  unfold val_main_v1
  rw [Host.reduce_eq_fold_single FloatOps.maximumf _ _ reducesTo_S65536x2048_S65536_d1 hred h_S_ (ix1 p)]
  rw [hf, val_main_cst_apply, Ideal.ofBits_def, hbot]
  rfl

/-- The exponential stage at (p, q): the exponential of the score less the row maximum. -/
theorem expShifted_ix2 (p : Fin 65536) (q : Fin 2048) :
    val_main_v7 (F := Ideal) x0 x1 (ix2 p q)
      = Ideal.exp (score x0 x1 p q - val_main_v3 (F := Ideal) x0 x1 (ix1 p)) := by
  rw [val_main_v7_apply, val_main_v6_apply, val_main_v5_apply, val_main_v4_apply, scores_ix2]
  have e : idx_main_v4 (idx_main_v5 (ix2 p q)) = ix1 p :=
    funext fun a => Fin.ext (by match a with | ⟨0, _⟩ => rfl)
  rw [e]
  rfl

/-- The row sums at p: zero plus the sum of the row's shifted exponentials. -/
theorem normaliser_ix1 (p : Fin 65536) :
    val_main_v8 (F := Ideal) x0 x1 (ix1 p)
      = (0 : EReal) + ∑ k : Fin 2048, Ideal.exp (score x0 x1 p k - val_main_v3 (F := Ideal) x0 x1 (ix1 p)) := by
  rw [val_main_v8_apply, val_main_cst_1_apply, Ideal.ofBits_def, Ideal.ofBits_zero_f32]
  refine congrArg _ (Finset.sum_congr rfl fun k _ => ?_)
  have e : idx_main_v8 (ix1 p) k = ix2 p k :=
    funext fun a => Fin.ext (by match a with | ⟨0, _⟩ => rfl | ⟨1, _⟩ => rfl)
  rw [e, expShifted_ix2]

/-- With real entries the quotient stage at (p, q) is the weight of slot q for row p. -/
theorem weight_ix2 (hx : ∀ i, ∃ r : ℝ, x0 i = r) (hm : ∀ i, ∃ r : ℝ, x1 i = r) (p : Fin 65536) (q : Fin 2048) :
    val_main_v11 (F := Ideal) x0 x1 (ix2 p q) = weight x0 x1 p q := by
  rw [val_main_v11_apply, val_main_v10_apply, val_main_v9_apply, expShifted_ix2]
  have e : idx_main_v9 (idx_main_v10 (ix2 p q)) = ix1 p :=
    funext fun a => Fin.ext (by match a with | ⟨0, _⟩ => rfl)
  rw [e, normaliser_ix1, rowMax_ix1]
  exact shifted_weight x0 x1 hx hm p q

/-- … and the last product at (p, d) is the read-out of row p at column d. -/
theorem readout_ix2 (hx : ∀ i, ∃ r : ℝ, x0 i = r) (hm : ∀ i, ∃ r : ℝ, x1 i = r) (p : Fin 65536) (d : Fin 256) :
    val_main_v12 (F := Ideal) x0 x1 (ix2 p d) = readout x0 x1 p d := by
  rw [val_main_v12_apply]
  unfold readout
  refine Finset.sum_congr rfl fun k _ => ?_
  have el : lidx_main_v12 (ix2 p d) k = ix2 p k :=
    funext fun a => Fin.ext (by match a with | ⟨0, _⟩ => rfl | ⟨1, _⟩ => rfl)
  have er : ridx_main_v12 (ix2 p d) k = ix2 k d :=
    funext fun a => Fin.ext (by match a with | ⟨0, _⟩ => rfl | ⟨1, _⟩ => rfl)
  rw [el, er, weight_ix2 x0 x1 hx hm]

/-- The reference's second result is the array of weights. -/
theorem weights_eq (hx : ∀ i, ∃ r : ℝ, x0 i = r) (hm : ∀ i, ∃ r : ℝ, x1 i = r) :
    val_main_v11 (F := Ideal) x0 x1 = weights x0 x1 := by
  funext i
  obtain ⟨p, q, rfl⟩ : ∃ (p : Fin 65536) (q : Fin 2048), i = ix2 p q := ⟨i 0, i 1, eq_ix2 i⟩
  exact weight_ix2 x0 x1 hx hm p q

/-- The reference's first result is the array of read-outs. -/
theorem readouts_eq (hx : ∀ i, ∃ r : ℝ, x0 i = r) (hm : ∀ i, ∃ r : ℝ, x1 i = r) :
    val_main_v12 (F := Ideal) x0 x1 = readouts x0 x1 := by
  funext i
  obtain ⟨p, d, rfl⟩ : ∃ (p : Fin 65536) (d : Fin 256), i = ix2 p d := ⟨i 0, i 1, eq_ix2 i⟩
  exact readout_ix2 x0 x1 hx hm p d

end Cert.MemAttn.Ref

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.LibMatmulT.lean ====
/-
  A matrix product into a zero accumulator whose right operand is stored row per output column (both operands contracted
  on their second axis: out = L · Rᵀ), read at an index as a plain sum of products over the contracted axis.

  For an n-by-K left operand and an M-by-K right operand, the entry at (p, q) is Σₖ L(p, k) · R(q, k). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulT

open Idealize.ShloMosaic Idealize.ShloMosaic.ValueIdx

/-- A kernel's matrix product L · Rᵀ into the zero splat, at the ideal values, read at `(p, q)`: the sum over the
    contracted axis of the left operand's row `p` times the right operand's row `q`. -/
theorem matmul_zero_ix2_t {n K M : ℕ} {φ₁ φ₂ : FTy}
    (d : DotDims (⟨2, ![n, K]⟩ : Shape) (⟨2, ![M, K]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (j 1).val) (hr1 : ∀ j c, (d.rhsIdx j c 1).val = (c ⟨0, by omega⟩).val)
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lib.MatmulT

end
-- ==== Proof.KernelPayload.lean ====
/-
  The kernel's arithmetic on one block, read at an index.

  On a block of 512 rows the body forms the scores of the block's rows against the whole table (a product
  contracting both operands' columns, into zeros), exponentiates them, sums each row, spreads the row sums back
  over the row and divides: at (r, q) that is the weight of slot q for the block's row r. The second product
  (the weights times the table, into zeros) at (r, d) is the block's read-out of row r at column d. Changes of
  float format are the identity on the extended reals.
-/
import proofs.«151388_j41901700939802_2_alg».proof.Proof.Gen.KernelIdeal.Skeleton
import proofs.«151388_j41901700939802_2_alg».proof.Proof.Softmax
import proofs.«151388_j41901700939802_2_alg».proof.Proof.LibColumn
import proofs.«151388_j41901700939802_2_alg».proof.Proof.LibMatmul
import proofs.«151388_j41901700939802_2_alg».proof.Proof.LibMatmulT
import Idealize.ShloMosaic.Lib.Pipeline.Value

noncomputable section

open scoped BigOperators

namespace Cert.MemAttn.Body

open Cert.KernelIdeal Cert.KernelIdeal.Gen
open Idealize.ShloMosaic Idealize.ShloMosaic.ValueIdx Cert.MemAttn

/-! ## The two products' dimension numbers -/

/-- Scores: the left operand's index takes its row from the output's row … -/
theorem scoreDims_l0 (j : S512x2048.Idx) (c : dot_S512x256_S2048x256_S512x2048_1_1_0_0_n_n.contr.Idx) :
    (dot_S512x256_S2048x256_S512x2048_1_1_0_0_n_n.lhsIdx j c 0).val = (j 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl
/-- … and its column from the contracted index; -/
theorem scoreDims_l1 (j : S512x2048.Idx) (c : dot_S512x256_S2048x256_S512x2048_1_1_0_0_n_n.contr.Idx) :
    (dot_S512x256_S2048x256_S512x2048_1_1_0_0_n_n.lhsIdx j c 1).val = (c ⟨0, by decide⟩).val :=
  dot_S512x256_S2048x256_S512x2048_1_1_0_0_n_n.lhsIdx_val_of_single rfl j c
/-- the right operand's index takes its row from the output's column … -/
theorem scoreDims_r0 (j : S512x2048.Idx) (c : dot_S512x256_S2048x256_S512x2048_1_1_0_0_n_n.contr.Idx) :
    (dot_S512x256_S2048x256_S512x2048_1_1_0_0_n_n.rhsIdx j c 0).val = (j 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl
/-- … and its column from the contracted index. -/
theorem scoreDims_r1 (j : S512x2048.Idx) (c : dot_S512x256_S2048x256_S512x2048_1_1_0_0_n_n.contr.Idx) :
    (dot_S512x256_S2048x256_S512x2048_1_1_0_0_n_n.rhsIdx j c 1).val = (c ⟨0, by decide⟩).val :=
  dot_S512x256_S2048x256_S512x2048_1_1_0_0_n_n.rhsIdx_val_of_single rfl j c

/-- Read-out: the left operand's index takes its row from the output's row … -/
theorem readDims_l0 (j : S512x256.Idx) (c : dot_S512x2048_S2048x256_S512x256_1_0_0_1_n_n.contr.Idx) :
    (dot_S512x2048_S2048x256_S512x256_1_0_0_1_n_n.lhsIdx j c 0).val = (j 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
/-- … and its column from the contracted index; -/
theorem readDims_l1 (j : S512x256.Idx) (c : dot_S512x2048_S2048x256_S512x256_1_0_0_1_n_n.contr.Idx) :
    (dot_S512x2048_S2048x256_S512x256_1_0_0_1_n_n.lhsIdx j c 1).val = (c ⟨0, by decide⟩).val :=
  dot_S512x2048_S2048x256_S512x256_1_0_0_1_n_n.lhsIdx_val_of_single rfl j c
/-- the right operand's index takes its row from the contracted index … -/
theorem readDims_r0 (j : S512x256.Idx) (c : dot_S512x2048_S2048x256_S512x256_1_0_0_1_n_n.contr.Idx) :
    (dot_S512x2048_S2048x256_S512x256_1_0_0_1_n_n.rhsIdx j c 0).val = (c ⟨0, by decide⟩).val :=
  dot_S512x2048_S2048x256_S512x256_1_0_0_1_n_n.rhsIdx_val_of_single rfl j c
/-- … and its column from the output's column. -/
theorem readDims_r1 (j : S512x256.Idx) (c : dot_S512x2048_S2048x256_S512x256_1_0_0_1_n_n.contr.Idx) :
    (dot_S512x2048_S2048x256_S512x256_1_0_0_1_n_n.rhsIdx j c 1).val = (j 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-! ## The stages -/

/-- The table as loaded is the table: a cast to its own shape changes nothing. -/
theorem table_eq (v2 : Vec Ideal S2048x256 .bf16) : k0_pay1 (F := Ideal) v2 = v2 :=
  shapeCast_self v2 shapeCasts_S2048x256_S2048x256

/-- The block of scores: the block's rows against the table's rows, into zeros. -/
def scoreBlock (v0 : Vec Ideal S512x256 .f32) (v2 : Vec Ideal S2048x256 .bf16) : FVec Ideal S512x2048 .f32 :=
  matmul dot_S512x256_S2048x256_S512x2048_1_1_0_0_n_n none (truncf .bf16 v0 bitsLt_bf16_f32) (k0_pay1 (F := Ideal) v2)
    (constant (F := Ideal) S512x2048 .f32 0x00000000#32)

/-- Exponentiate, sum each row, spread the sums over the rows, divide. -/
def normaliseRows (S : FVec Ideal S512x2048 .f32) : FVec Ideal S512x2048 .f32 :=
  divf (exp S) (broadcastTo S512x2048 (shapeCast S512x1
    (multiReduction (F := Ideal) .add [1] S512 (exp S) 0x00000000#32 reduces_S512x2048_S512 (.inl rfl) rfl)
    shapeCasts_S512_S512x1) broadcasts_S512x1_S512x2048)

/-- The body's first stored value is the normalised block of scores. -/
theorem pay2_eq (v0 : Vec Ideal S512x256 .f32) (v2 : Vec Ideal S2048x256 .bf16) :
    k0_pay2 (F := Ideal) v0 v2 = normaliseRows (scoreBlock v0 v2) := rfl

/-- The block of scores at (r, q) is the score of the block's row r against slot q. -/
theorem scoreBlock_ix2 (v0 : Vec Ideal S512x256 .f32) (v2 : Vec Ideal S2048x256 .bf16) (r : Fin 512) (q : Fin 2048) :
    scoreBlock v0 v2 (ix2 r q) = score (N := 512) v0 v2 r q := by
  unfold scoreBlock
  rw [table_eq]
  exact Cert.Lib.MatmulT.matmul_zero_ix2_t dot_S512x256_S2048x256_S512x2048_1_1_0_0_n_n none rfl rfl
    scoreDims_l0 scoreDims_l1 scoreDims_r0 scoreDims_r1 (truncf .bf16 v0 bitsLt_bf16_f32) v2 r q

/-- A row sum of a 512-by-2048 block at r is the sum of row r's 2048 entries. -/
theorem rowSum_ix1 (E : FVec Ideal S512x2048 .f32) (r : Fin 512) :
    multiReduction (F := Ideal) .add [1] S512 E 0x00000000#32 reduces_S512x2048_S512 (.inl rfl) rfl (ix1 r)
      = ∑ k : Fin 2048, E (ix2 r k) := by
  refine (Ideal.multiReduction_add_single E 0x00000000#32 reduces_S512x2048_S512 (.inl rfl) rfl (ix1 r)).trans ?_
  refine Finset.sum_congr rfl fun k _ => congrArg E ?_
  funext c; apply Fin.ext; fin_cases c <;> rfl

/-- The normalised block at (r, q): the exponential there over the sum of row r's exponentials. -/
theorem normaliseRows_ix2 (S : FVec Ideal S512x2048 .f32) (r : Fin 512) (q : Fin 2048) :
    normaliseRows S (ix2 r q) = Ideal.div (Ideal.exp (S (ix2 r q))) (∑ k : Fin 2048, Ideal.exp (S (ix2 r k))) := by
  unfold normaliseRows
  show Ideal.div (Ideal.exp (S (ix2 r q))) _ = _
  refine congrArg _ ?_
  refine (Cert.Lib.Column.broadcastTo_a1_ab_apply _ broadcasts_S512x1_S512x2048 r q).trans ?_
  refine (Cert.Lib.Column.shapeCast_a_a1_apply _ shapeCasts_S512_S512x1 r 0).trans ?_
  exact rowSum_ix1 (exp S) r

/-- The body's first stored value at (r, q) is the weight of slot q for the block's row r. -/
theorem pay2_ix2 (v0 : Vec Ideal S512x256 .f32) (v2 : Vec Ideal S2048x256 .bf16) (r : Fin 512) (q : Fin 2048) :
    k0_pay2 (F := Ideal) v0 v2 (ix2 r q) = weight (N := 512) v0 v2 r q := by
  rw [pay2_eq, normaliseRows_ix2]
  unfold weight
  rw [scoreBlock_ix2]
  exact congrArg _ (Finset.sum_congr rfl fun k _ => by rw [scoreBlock_ix2])

/-- The body's second stored value at (r, d) is the read-out of the block's row r at column d. -/
theorem pay3_ix2 (v0 : Vec Ideal S512x256 .f32) (v2 : Vec Ideal S2048x256 .bf16) (r : Fin 512) (d : Fin 256) :
    k0_pay3 (F := Ideal) v0 v2 (ix2 r d) = readout (N := 512) v0 v2 r d := by
  have e : k0_pay3 (F := Ideal) v0 v2 (ix2 r d)
      = ∑ k : Fin 2048, (truncf .bf16 (k0_pay2 (F := Ideal) v0 v2) bitsLt_bf16_f32 : FVec Ideal S512x2048 .bf16) (ix2 r k)
          * (k0_pay1 (F := Ideal) v2) (ix2 k d) :=
    Cert.Lib.Matmul.matmul_zero_ix2 dot_S512x2048_S2048x256_S512x256_1_0_0_1_n_n none rfl rfl
      readDims_l0 readDims_l1 readDims_r0 readDims_r1 _ _ r d
  rw [e, table_eq]
  unfold readout
  refine Finset.sum_congr rfl fun k _ => ?_
  show k0_pay2 (F := Ideal) v0 v2 (ix2 r k) * v2 (ix2 k d) = _
  rw [pay2_ix2]

end Cert.MemAttn.Body

end
-- ==== Proof.KernelBlocks.lean ====
/-
  From blocks to arrays: the kernel's two results are the read-outs and the weights of the whole argument.

  The grid has 128 points; point t works on rows 512·t … 512·t + 511 of x and on the whole table (the table the
  region finds is the argument table with its float format changed, the identity here), and writes the same rows
  of both results. A row's weights and read-out depend on that row of x only, so what point t writes is block t of
  the whole-array weights and read-outs; the 128 blocks cover every row (row n lies in block n / 512), so the
  arrays end holding exactly those two functions of the arguments.
-/
import proofs.«151388_j41901700939802_2_alg».proof.Proof.Gen.KernelIdeal.Value
import proofs.«151388_j41901700939802_2_alg».proof.Proof.KernelPayload
import Idealize.ShloMosaic.Lib.StableHlo.Run
import Idealize.ShloMosaic.Lib.Pipeline.Value

noncomputable section

open scoped BigOperators

namespace Cert.MemAttn.Blocks

open Cert.KernelIdeal Cert.KernelIdeal.Gen Cert.KernelIdeal.Value
open Idealize.ShloMosaic Idealize.ShloMosaic.TcCoe Idealize.SL.Sem Idealize.ShloMosaic.ValueIdx Cert.MemAttn
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The block index of every window at every point: x and both results move down one block of rows per
    point; the table stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The table the region finds is the argument table (its format changed, which is the identity). -/
theorem table_entry (c : Dev nD) (i : S2048x256.Idx) :
    (V m c main_v0 : S2048x256.Idx → EReal) i = (m ((c : Thread nD τ).loc main_arg1) : S2048x256.Idx → EReal) i := by
  have e : (V m c main_v0 : S2048x256.Idx → EReal)
      = (truncf .bf16 (m ((c : Thread nD τ).loc main_arg1) : FVec Ideal S2048x256 .f32) bitsLt_bf16_f32 : FVec Ideal S2048x256 .bf16) := by
    dsimp only [Gen.V, Gen.hostOps0]; after_results
  rw [e]; rfl

/-- The block of x at point t, at (r, d), is x at row 512·t + r. -/
theorem xblock_apply (c : Dev nD) (t : Fin cfg0.N) (r : Fin 512) (d : Fin 256) (n : Fin 65536)
    (hn : n.val = 512 * t.val + r.val) :
    (iblk m c 0 t : Vec Ideal S512x256 .f32) (ix2 r d)
      = (m ((c : Thread nD τ).loc main_arg0) : S65536x256.Idx → EReal) (ix2 n d) := by
  obtain ⟨e0, e1, -⟩ := block_index t
  unfold iblk
  rw [View.read_apply]
  show V m c main_arg0 _ = _
  refine (congrFun (V_main_arg0 m c) _).trans ?_
  refine congrArg _ (funext fun a => Fin.ext ?_)
  match a with
  | ⟨0, _⟩ => show win0_0.index t (0 : Fin 2) * 512 + 1 * r.val = n.val; rw [e0, hn]; omega
  | ⟨1, _⟩ => show win0_0.index t (1 : Fin 2) * 256 + 1 * d.val = d.val; rw [e1]; omega

/-- The block of the table at any point is the whole argument table. -/
theorem tblock_apply (c : Dev nD) (t : Fin cfg0.N) (j : Fin 2048) (d : Fin 256) :
    (iblk m c 1 t : Vec Ideal S2048x256 .bf16) (ix2 j d)
      = (m ((c : Thread nD τ).loc main_arg1) : S2048x256.Idx → EReal) (ix2 j d) := by
  obtain ⟨-, -, e2, e3, -⟩ := block_index t
  unfold iblk
  rw [View.read_apply]
  show V m c main_v0 _ = _
  refine (table_entry m c _).trans ?_
  refine congrArg _ (funext fun a => Fin.ext ?_)
  match a with
  | ⟨0, _⟩ => show win0_1.index t (0 : Fin 2) * 2048 + 1 * j.val = j.val; rw [e2]; omega
  | ⟨1, _⟩ => show win0_1.index t (1 : Fin 2) * 256 + 1 * d.val = d.val; rw [e3]; omega

/-! ## The weights (the second result) -/

/-- What point t writes back to the second result is block t of the whole-array weights. -/
theorem flushed_weights (c : Dev nD) (t : Fin cfg0.N) :
    (dats m 0 c).flushed 3 t = ((cfg0.win 3).blk t).view.read (Elt Ideal)
      (weights (N := 65536) (m ((c : Thread nD τ).loc main_arg0)) (m ((c : Thread nD τ).loc main_arg1))) := by
  rw [Value.flushed3]
  unfold out0_3
  rw [View.canon_unit_zero zeros]
  simp only [View.ld_unit_zero (S := S512x256) zeros, View.ld_unit_zero (S := S2048x256) zeros]
  obtain ⟨-, -, -, -, -, -, e6, e7⟩ := block_index t
  have hN : cfg0.N = 128 := N_0
  refine funext fun (j : S512x2048.Idx) => ?_
  obtain ⟨r, q, rfl⟩ : ∃ (r : Fin 512) (q : Fin 2048), j = ix2 r q := ⟨j 0, j 1, eq_ix2 j⟩
  have hlt : 512 * t.val + r.val < 65536 := by have := t.isLt; omega
  show k0_pay2 (F := Ideal) (iblk m c 0 t) (iblk m c 1 t) (ix2 r q)
    = weights (N := 65536) _ _ (((cfg0.win 3).blk t).view.emb (ix2 r q))
  have hemb : ((cfg0.win 3).blk t).view.emb (ix2 r q) = ix2 (⟨512 * t.val + r.val, hlt⟩ : Fin 65536) q :=
    funext fun a => Fin.ext (by
      match a with
      | ⟨0, _⟩ => show win0_3.index t (0 : Fin 2) * 512 + 1 * r.val = 512 * t.val + r.val; rw [e6]; omega
      | ⟨1, _⟩ => show win0_3.index t (1 : Fin 2) * 2048 + 1 * q.val = q.val; rw [e7]; omega)
  rw [hemb, weights_ix2]
  refine (Body.pay2_ix2 (iblk m c 0 t : Vec Ideal S512x256 .f32) (iblk m c 1 t : Vec Ideal S2048x256 .bf16) r q).trans ?_
  exact weight_congr (N := 512) (N' := 65536) (iblk m c 0 t : Vec Ideal S512x256 .f32) (m ((c : Thread nD τ).loc main_arg0))
    (iblk m c 1 t : Vec Ideal S2048x256 .bf16) (m ((c : Thread nD τ).loc main_arg1)) r ⟨512 * t.val + r.val, hlt⟩
    (fun d => xblock_apply m c t r d _ rfl) (fun j d => tblock_apply m c t j d) q

/-- An index of the second result is in point t's block iff each coordinate is in the block's range. -/
theorem mem_block_weights (t : Fin cfg0.N) (i : S65536x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1_1).slice (win0_3.rect t)).set ↔ _
  rw [View.set_slice_whole, Rect.mem_set_unit]
  exact Iff.rfl

/-- Every index of the second result lies in the block of the point its row belongs to. -/
theorem cover_weights (i : S65536x2048.Idx) :
    ∃ t : Fin cfg0.N, (cfg0.win 3).flush t = true ∧ i ∈ ((cfg0.win 3).blk t).view.set := by
  have hN : cfg0.N = 128 := N_0
  have hi0 : (i 0).val < 65536 := (i 0).isLt
  have hi1 : (i 1).val < 2048 := (i 1).isLt
  obtain ⟨t, ht⟩ : ∃ t : Fin cfg0.N, t.val = (i 0).val / 512 := ⟨⟨(i 0).val / 512, by omega⟩, rfl⟩
  refine ⟨t, flush0_3 t, ?_⟩
  rw [mem_block_weights]
  obtain ⟨-, -, -, -, -, -, e6, e7⟩ := block_index t
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 2048 ≤ (i 1).val ∧ (i 1).val < win0_3.index t (1 : Fin 2) * 2048 + 2048
    rw [e7]; omega

/-- The second result after the run is the array of weights. -/
theorem final_weights (c : Dev nD) : (dats m 0 c).arrAt 3 cfg0.N
    = weights (N := 65536) (m ((c : Thread nD τ).loc main_arg0)) (m ((c : Thread nD τ).loc main_arg1)) :=
  (dats m 0 c).arrAt_eq_of_cover 3 _ (fun t _ => flushed_weights m c t) cover_weights

/-! ## The read-outs (the first result) -/

/-- What point t writes back to the first result is block t of the whole-array read-outs. -/
theorem flushed_readouts (c : Dev nD) (t : Fin cfg0.N) :
    (dats m 0 c).flushed 2 t = ((cfg0.win 2).blk t).view.read (Elt Ideal)
      (readouts (N := 65536) (m ((c : Thread nD τ).loc main_arg0)) (m ((c : Thread nD τ).loc main_arg1))) := by
  rw [Value.flushed2]
  unfold out0_2
  rw [View.canon_unit_zero zeros]
  simp only [View.ld_unit_zero (S := S512x256) zeros, View.ld_unit_zero (S := S2048x256) zeros]
  obtain ⟨-, -, -, -, e4, e5, -⟩ := block_index t
  have hN : cfg0.N = 128 := N_0
  refine funext fun (j : S512x256.Idx) => ?_
  obtain ⟨r, d, rfl⟩ : ∃ (r : Fin 512) (d : Fin 256), j = ix2 r d := ⟨j 0, j 1, eq_ix2 j⟩
  have hlt : 512 * t.val + r.val < 65536 := by have := t.isLt; omega
  show k0_pay3 (F := Ideal) (iblk m c 0 t) (iblk m c 1 t) (ix2 r d)
    = readouts (N := 65536) _ _ (((cfg0.win 2).blk t).view.emb (ix2 r d))
  have hemb : ((cfg0.win 2).blk t).view.emb (ix2 r d) = ix2 (⟨512 * t.val + r.val, hlt⟩ : Fin 65536) d :=
    funext fun a => Fin.ext (by
      match a with
      | ⟨0, _⟩ => show win0_2.index t (0 : Fin 2) * 512 + 1 * r.val = 512 * t.val + r.val; rw [e4]; omega
      | ⟨1, _⟩ => show win0_2.index t (1 : Fin 2) * 256 + 1 * d.val = d.val; rw [e5]; omega)
  rw [hemb, readouts_ix2]
  refine (Body.pay3_ix2 (iblk m c 0 t : Vec Ideal S512x256 .f32) (iblk m c 1 t : Vec Ideal S2048x256 .bf16) r d).trans ?_
  exact readout_congr (N := 512) (N' := 65536) (iblk m c 0 t : Vec Ideal S512x256 .f32) (m ((c : Thread nD τ).loc main_arg0))
    (iblk m c 1 t : Vec Ideal S2048x256 .bf16) (m ((c : Thread nD τ).loc main_arg1)) r ⟨512 * t.val + r.val, hlt⟩
    (fun d' => xblock_apply m c t r d' _ rfl) (fun j d' => tblock_apply m c t j d') d

/-- An index of the first result is in point t's block iff each coordinate is in the block's range. -/
theorem mem_block_readouts (t : Fin cfg0.N) (i : S65536x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v1_0).slice (win0_2.rect t)).set ↔ _
  rw [View.set_slice_whole, Rect.mem_set_unit]
  exact Iff.rfl

/-- Every index of the first result lies in the block of the point its row belongs to. -/
theorem cover_readouts (i : S65536x256.Idx) :
    ∃ t : Fin cfg0.N, (cfg0.win 2).flush t = true ∧ i ∈ ((cfg0.win 2).blk t).view.set := by
  have hN : cfg0.N = 128 := N_0
  have hi0 : (i 0).val < 65536 := (i 0).isLt
  have hi1 : (i 1).val < 256 := (i 1).isLt
  obtain ⟨t, ht⟩ : ∃ t : Fin cfg0.N, t.val = (i 0).val / 512 := ⟨⟨(i 0).val / 512, by omega⟩, rfl⟩
  refine ⟨t, flush0_2 t, ?_⟩
  rw [mem_block_readouts]
  obtain ⟨-, -, -, -, e4, e5, -⟩ := block_index t
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 256 ≤ (i 1).val ∧ (i 1).val < win0_2.index t (1 : Fin 2) * 256 + 256
    rw [e5]; omega

/-- The first result after the run is the array of read-outs. -/
theorem final_readouts (c : Dev nD) : (dats m 0 c).arrAt 2 cfg0.N
    = readouts (N := 65536) (m ((c : Thread nD τ).loc main_arg0)) (m ((c : Thread nD τ).loc main_arg1)) :=
  (dats m 0 c).arrAt_eq_of_cover 2 _ (fun t _ => flushed_readouts m c t) cover_readouts

/-! ## The run -/

/-- Every weakly fair execution of the kernel's program ends with the first result at the read-outs and the second
    at the weights of the argument arrays, the arguments unchanged. -/
theorem run : θ_run defs (onTc (τ := τ) (main (F := Ideal))) ⟨m, fun _ => 0, ρ⟩ fun r => ∀ c : Dev nD,
      r.2.mem ((c : Thread nD τ).loc main_v1_0)
        = readouts (N := 65536) (m ((c : Thread nD τ).loc main_arg0)) (m ((c : Thread nD τ).loc main_arg1))
      ∧ r.2.mem ((c : Thread nD τ).loc main_v1_1)
        = weights (N := 65536) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_readouts m c), (h c).2.1.trans (final_weights m c),
      (h c).2.2.1, (h c).2.2.2⟩)
    (Value.run_blocks (F := Ideal) m ρ)

end Cert.MemAttn.Blocks

end
-- ==== Proof.lean ====
/-
  Attention over a memory table: the kernel against its reference, on the extended reals.

  Both programs take an array x (65536 by 256) and a table (2048 by 256) and return the read-outs
  Σ_j w(n,j)·table(j,d) and the weights w(n,j) = exp(s(n,j)) / Σ_j' exp(s(n,j')) of the scores
  s(n,j) = Σ_d x(n,d)·table(j,d). The kernel computes the weights as written, 512 rows at a time; the reference
  first subtracts each row's largest score. With finite inputs every score and every row maximum is a real
  number, exp(s − M) = exp(s)/exp(M), and the factor 1/exp(M) cancels between numerator and normaliser: the two
  ways of writing the weights agree, and so do the read-outs. Changes of float format are the identity here, and
  the order in which a sum is taken does not matter.

  The kernel's idealization rewrote nothing, so there is nothing to preserve; the three programs' runs terminate
  without fault and leave their arguments as they were.
-/
import proofs.«151388_j41901700939802_2_alg».proof.Defs
import proofs.«151388_j41901700939802_2_alg».proof.Proof.Gen.Kernel
import proofs.«151388_j41901700939802_2_alg».proof.Proof.Gen.Kernel.Skeleton
import proofs.«151388_j41901700939802_2_alg».proof.Proof.Gen.Kernel.Launch
import proofs.«151388_j41901700939802_2_alg».proof.Proof.Gen.Kernel.Points
import proofs.«151388_j41901700939802_2_alg».proof.Proof.Gen.Kernel.Frame
import proofs.«151388_j41901700939802_2_alg».proof.Proof.Gen.KernelIdeal
import proofs.«151388_j41901700939802_2_alg».proof.Proof.Gen.KernelIdeal.Skeleton
import proofs.«151388_j41901700939802_2_alg».proof.Proof.Gen.KernelIdeal.Launch
import proofs.«151388_j41901700939802_2_alg».proof.Proof.Gen.KernelIdeal.Points
import proofs.«151388_j41901700939802_2_alg».proof.Proof.Gen.KernelIdeal.Frame
import proofs.«151388_j41901700939802_2_alg».proof.Proof.Gen.ReferenceIdeal
import proofs.«151388_j41901700939802_2_alg».proof.Proof.Gen.Pre_finite_inputs
import proofs.«151388_j41901700939802_2_alg».proof.Proof.Gen.KernelIdeal.Value
import proofs.«151388_j41901700939802_2_alg».proof.Proof.Gen.ReferenceIdeal.Run
import proofs.«151388_j41901700939802_2_alg».proof.Proof.Gen.ReferenceIdeal.Read
import proofs.«151388_j41901700939802_2_alg».proof.Proof.Finite
import proofs.«151388_j41901700939802_2_alg».proof.Proof.RefSide
import proofs.«151388_j41901700939802_2_alg».proof.Proof.KernelBlocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- From arguments that agree and are finite, both programs end with the read-outs and the weights of the
    arguments: the kernel block by block, the reference by the law of shifted exponentials. -/
theorem algebraic : Cert.algebraic_KernelIdeal_ReferenceIdeal := by
  intro m ρ m' ρ' hpre hagree
  refine ⟨fun c => Cert.MemAttn.readouts (N := 65536) (m ((c.tc : Thread _ _).loc Cert.KernelIdeal.main_arg0))
      (m ((c.tc : Thread _ _).loc Cert.KernelIdeal.main_arg1)),
    fun c => Cert.MemAttn.weights (N := 65536) (m ((c.tc : Thread _ _).loc Cert.KernelIdeal.main_arg0))
      (m ((c.tc : Thread _ _).loc Cert.KernelIdeal.main_arg1)),
    Cert.MemAttn.Blocks.run m ρ, ?_⟩
  refine (θ_run Cert.ReferenceIdeal.defs _ _).mono (fun _ h c => ?_)
    (Cert.ReferenceIdeal.Value.run (F := Ideal) m' ρ')
  obtain ⟨hx, hm⟩ := Cert.MemAttn.entries_real _ _ (hpre c)
  refine ⟨(h c).1.trans ?_, (h c).2.1.trans ?_, (h c).2.2.1, (h c).2.2.2⟩
  · rw [Cert.ReferenceIdeal.Read.val_main_v12_eq, (hagree c).1, (hagree c).2]
    exact Cert.MemAttn.Ref.readouts_eq _ _ hx hm
  · rw [Cert.ReferenceIdeal.Read.val_main_v11_eq, (hagree c).1, (hagree c).2]
    exact Cert.MemAttn.Ref.weights_eq _ _ hx hm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
